-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x64 : Shape := ⟨2, ![65536, 64]⟩
abbrev S65536x64x64 : Shape := ⟨3, ![65536, 64, 64]⟩
abbrev S_ : Shape := ⟨0, ![]⟩

class Facts : Prop where
  bcast_S_S65536x64 : S_.BroadcastsInDim S65536x64 (![] : Fin 0 → Fin S65536x64.rank)
  reducesTo_S65536x64_S_d0_1 : S65536x64.ReducesTo [0, 1] S_
  h_S_ : 0 < S_.numel
  bcast_S_S65536x64x64 : S_.BroadcastsInDim S65536x64x64 (![] : Fin 0 → Fin S65536x64x64.rank)
  reducesTo_S65536x64x64_S_d0_1_2 : S65536x64x64.ReducesTo [0, 1, 2] S_

variable [Facts]

def fn {F : FTy → Type} [FloatOps F] (main_arg0 : FVec F S65536x64 .f32) (main_arg1 : FVec F S65536x64x64 .f32) : IVec S_ 1 :=
  let main_v0 : FVec F S65536x64 .f32 := Host.absf main_arg0
  let main_cst : FVec F S_ .f32 := constant S_ .f32 0x7F800000#32
  let main_v1 : FVec F S65536x64 .f32 := broadcastInDim S65536x64 ![] bcast_S_S65536x64 main_cst
  let main_v2 : IVec S65536x64 1 := cmpf .olt main_v0 main_v1
  let main_c : IVec S_ 1 := constantI S_ 1 1#1
  let main_v3 : IVec S_ 1 := (fun x v => Host.reduce IntOp.andi x v reducesTo_S65536x64_S_d0_1 h_S_) main_v2 main_c
  let main_v4 : FVec F S65536x64x64 .f32 := Host.absf main_arg1
  let main_cst_0 : FVec F S_ .f32 := constant S_ .f32 0x7F800000#32
  let main_v5 : FVec F S65536x64x64 .f32 := broadcastInDim S65536x64x64 ![] bcast_S_S65536x64x64 main_cst_0
  let main_v6 : IVec S65536x64x64 1 := cmpf .olt main_v4 main_v5
  let main_c_1 : IVec S_ 1 := constantI S_ 1 1#1
  let main_v7 : IVec S_ 1 := (fun x v => Host.reduce IntOp.andi x v reducesTo_S65536x64x64_S_d0_1_2 h_S_) main_v6 main_c_1
  let main_v8 : IVec S_ 1 := andi main_v3 main_v7
  main_v8
-- ==== Kernel.lean ====
abbrev S65536x64 : Shape := ⟨2, ![65536, 64]⟩
abbrev S65536x64x64 : Shape := ⟨3, ![65536, 64, 64]⟩
abbrev S2x64x1 : Shape := ⟨3, ![2, 64, 1]⟩
abbrev S512x64 : Shape := ⟨2, ![512, 64]⟩
abbrev S512x64x64 : Shape := ⟨3, ![512, 64, 64]⟩
abbrev S1x64x1 : Shape := ⟨3, ![1, 64, 1]⟩
abbrev S512x1x64 : Shape := ⟨3, ![512, 1, 64]⟩
abbrev S512x64x1 : Shape := ⟨3, ![512, 64, 1]⟩
abbrev S64x1 : Shape := ⟨2, ![64, 1]⟩
abbrev S_ : Shape := ⟨0, ![]⟩
abbrev S1x64 : Shape := ⟨2, ![1, 64]⟩

abbrev nBuf : Space → Nat
  | .hbm => 6
  | .vmem => 7
  | .smem => 0
  | _ => 0

abbrev bufTy : (tb : Table) → Fin (tcTables nBuf tb) → BufTy
  | .hbm, ⟨0, _⟩ => ⟨S65536x64, .f32⟩
  | .hbm, ⟨1, _⟩ => ⟨S65536x64x64, .f32⟩
  | .hbm, ⟨2, _⟩ => ⟨S2x64x1, .f32⟩
  | .hbm, ⟨3, _⟩ => ⟨S_, .f32⟩
  | .hbm, ⟨4, _⟩ => ⟨S64x1, .f32⟩
  | .hbm, ⟨5, _⟩ => ⟨S1x64, .f32⟩
  | .local _ .vmem, ⟨0, _⟩ => ⟨S512x64, .f32⟩
  | .local _ .vmem, ⟨1, _⟩ => ⟨S512x64, .f32⟩
  | .local _ .vmem, ⟨2, _⟩ => ⟨S512x64x64, .f32⟩
  | .local _ .vmem, ⟨3, _⟩ => ⟨S512x64x64, .f32⟩
  | .local _ .vmem, ⟨4, _⟩ => ⟨S1x64x1, .f32⟩
  | .local _ .vmem, ⟨5, _⟩ => ⟨S1x64x1, .f32⟩
  | .local _ .vmem, ⟨6, _⟩ => ⟨S1x64x1, .f32⟩
  | _, _ => ⟨S65536x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v22 : BitVec 1 := Scalar.cmpi .eq arg1 c63_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x64x1_S1x64x1_0_0_0 : ∀ a, (![0, 0, 0] : Fin 3 → Nat) a + S1x64x1.size a ≤ S1x64x1.size a
  h_S1x64x1 : 0 < S1x64x1.numel
  shapeCasts_S1x64x1_S1x64x1 : S1x64x1.ShapeCasts S1x64x1
  inb_S512x64_S512x64_0_0 : ∀ a, (![0, 0] : Fin 2 → Nat) a + S512x64.size a ≤ S512x64.size a
  h_S512x64 : 0 < S512x64.numel
  inb_S512x64x64_S512x64x64_0_0_0 : ∀ a, (![0, 0, 0] : Fin 3 → Nat) a + S512x64x64.size a ≤ S512x64x64.size a
  h_S512x64x64 : 0 < S512x64x64.numel
  shapeCasts_S512x64_S512x1x64 : S512x64.ShapeCasts S512x1x64
  broadcasts_S512x1x64_S512x64x64 : S512x1x64.Broadcasts S512x64x64
  reduces_S512x64x64_S512x64 : S512x64x64.Reduces [2] S512x64
  shapeCasts_S512x64_S512x64x1 : S512x64.ShapeCasts S512x64x1
  reduces_S512x64x1_S64x1 : S512x64x1.Reduces [0] S64x1
  shapeCasts_S64x1_S1x64x1 : S64x1.ShapeCasts S1x64x1
  reducesTo_S2x64x1_S64x1_d0 : S2x64x1.ReducesTo [0] S64x1
  h_S_ : 0 < S_.numel
  shapeCasts_S64x1_S1x64 : S64x1.ShapeCasts S1x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x64.size a ≤ S65536x64.size a
  hwx0_0 : ∀ i : grid0.Coords, EltTy.bits .f32 = 32 ∨ (Rect.block (s := S65536x64) S512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x64x64.size a ≤ S65536x64x64.size a
  hwx0_1 : ∀ i : grid0.Coords, EltTy.bits .f32 = 32 ∨ (Rect.block (s := S65536x64x64) S512x64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x1.size a ≤ S2x64x1.size a
  hwx0_2 : ∀ i : grid0.Coords, EltTy.bits .f32 = 32 ∨ (Rect.block (s := S2x64x1) S1x64x1.size (cc0_transform_2 i) (hinb0_2 i)).WholeWords (EltTy.packing .f32)

variable [Facts₀]

abbrev win0_0 : Pipeline.Window sig grid0 :=
  Pipeline.Window.ofSpec (Memref.whole main_arg0) S512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S65536x64 : Shape := ⟨2, ![65536, 64]⟩
abbrev S65536x64x64 : Shape := ⟨3, ![65536, 64, 64]⟩
abbrev S65536x1x64 : Shape := ⟨3, ![65536, 1, 64]⟩
abbrev S_ : Shape := ⟨0, ![]⟩
abbrev S64 : Shape := ⟨1, ![64]⟩
abbrev S1x64 : Shape := ⟨2, ![1, 64]⟩

abbrev nBuf : Space → Nat
  | .hbm => 17
  | .vmem => 0
  | .smem => 0
  | _ => 0

abbrev bufTy : (tb : Table) → Fin (tcTables nBuf tb) → BufTy
  | .hbm, ⟨0, _⟩ => ⟨S65536x64, .f32⟩
  | .hbm, ⟨1, _⟩ => ⟨S65536x64x64, .f32⟩
  | .hbm, ⟨2, _⟩ => ⟨S65536x1x64, .f32⟩
  | .hbm, ⟨3, _⟩ => ⟨S65536x64x64, .f32⟩
  | .hbm, ⟨4, _⟩ => ⟨S65536x64x64, .f32⟩
  | .hbm, ⟨5, _⟩ => ⟨S65536x64x64, .f32⟩
  | .hbm, ⟨6, _⟩ => ⟨S_, .f32⟩
  | .hbm, ⟨7, _⟩ => ⟨S65536x64, .f32⟩
  | .hbm, ⟨8, _⟩ => ⟨S_, .f32⟩
  | .hbm, ⟨9, _⟩ => ⟨S65536x64, .f32⟩
  | .hbm, ⟨10, _⟩ => ⟨S65536x64, .f32⟩
  | .hbm, ⟨11, _⟩ => ⟨S_, .f32⟩
  | .hbm, ⟨12, _⟩ => ⟨S65536x64, .f32⟩
  | .hbm, ⟨13, _⟩ => ⟨S65536x64, .f32⟩
  | .hbm, ⟨14, _⟩ => ⟨S_, .f32⟩
  | .hbm, ⟨15, _⟩ => ⟨S64, .f32⟩
  | .hbm, ⟨16, _⟩ => ⟨S1x64, .f32⟩
  | _, _ => ⟨S65536x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  bcast_S65536x64_S65536x1x64_0_2 : S65536x64.BroadcastsInDim S65536x1x64 (![0, 2] : Fin 2 → Fin S65536x1x64.rank)
  bcast_S65536x1x64_S65536x64x64_0_1_2 : S65536x1x64.BroadcastsInDim S65536x64x64 (![0, 1, 2] : Fin 3 → Fin S65536x64x64.rank)
  reducesTo_S65536x64x64_S65536x64_d2 : S65536x64x64.ReducesTo [2] S65536x64
  h_S_ : 0 < S_.numel
  bcast_S_S65536x64 : S_.BroadcastsInDim S65536x64 (![] : Fin 0 → Fin S65536x64.rank)
  reducesTo_S65536x64_S64_d0 : S65536x64.ReducesTo [0] S64
  shapeCasts_S64_S1x64 : S64.ShapeCasts S1x64

variable [Facts₀]

class Facts : Prop extends Facts₀ where

variable [Facts]
-- ==== Proof.LogDensity.lean ====
/-
  The summed Gaussian log-density, as one function of the two argument arrays, and the one law the proof needs.

  For a batch entry n and a component i, with x the [65536, 64] array and mu the [65536, 64, 64] array,
    sqDist n i = sum over j of (x[n, j] - mu[n, i, j])^2,
    logp n i   = a * sqDist n i - c          (a the word of -1/2, c the word of 32 * log (2 pi)),
  and the result at component i is the sum of logp n i over all 65536 batch entries.

  The law: the batch splits into 128 consecutive blocks of 512 rows, and the 128 blocks into two runs of 64, so the
  sum over the batch is the sum over the two runs of the sum over a run's blocks of the sum over a block's rows.
  Only commutativity and associativity of addition are used, so the law holds on the extended reals with no
  finiteness assumption.
-/
import Idealize.ShloMosaic.PureOps.Ideal
import Idealize.ShloMosaic.PureOps.Ideal.Laws
import Idealize.ShloMosaic.Lib.ValueIdx

noncomputable section

namespace Cert.LogDensity

open Idealize.ShloMosaic Idealize.ShloMosaic.ValueIdx
open scoped BigOperators

/-- The shapes of the two argument arrays and of the result. -/
abbrev SX : Shape := ⟨2, ![65536, 64]⟩
abbrev SM : Shape := ⟨3, ![65536, 64, 64]⟩
abbrev SR : Shape := ⟨2, ![1, 64]⟩

/-- The word of -1/2 and the word of 32 * log (2 pi), read as extended reals. Both programs carry the same two
    words, so neither is ever evaluated. -/
abbrev negHalf : EReal := Ideal.ofBits .f32 0xBF000000#32
abbrev logNorm : EReal := Ideal.ofBits .f32 0x426B3F8E#32

variable (x : SX.Idx → EReal) (mu : SM.Idx → EReal)

/-- The squared distance between row n of x and mean i of entry n. -/
def sqDist (n : Fin 65536) (i : Fin 64) : EReal :=
  ∑ j : Fin 64, (x (ix2 n j) - mu (ix3 n i j)) * (x (ix2 n j) - mu (ix3 n i j))

/-- The log-density of entry n under mean i. -/
def logp (n : Fin 65536) (i : Fin 64) : EReal := negHalf * sqDist x mu n i - logNorm

/-- The log-density summed over the whole batch. -/
def total (i : Fin 64) : EReal := ∑ n : Fin 65536, logp x mu n i

/-- The result array: one row, component i at column i. -/
def result : SR.Idx → EReal := fun y => total x mu (y 1)

/-- logp with the batch entry a natural number (zero past the batch), so that sums over ranges can be regrouped
    without carrying bounds. -/
def logpN (n : ℕ) (i : Fin 64) : EReal := if h : n < 65536 then logp x mu ⟨n, h⟩ i else 0

theorem logpN_of_lt (n : ℕ) (h : n < 65536) (i : Fin 64) : logpN x mu n i = logp x mu ⟨n, h⟩ i := dif_pos h

/-- Row r of block b. -/
def row (b : Fin 128) (r : Fin 512) : Fin 65536 :=
  ⟨512 * b.val + r.val, by have := b.isLt; have := r.isLt; omega⟩

/-- The log-density summed over the 512 rows of block b. -/
def blockSum (b : ℕ) (i : Fin 64) : EReal := ∑ r : Fin 512, logpN x mu (512 * b + r.val) i

theorem blockSum_of_lt (b : Fin 128) (i : Fin 64) : blockSum x mu b.val i = ∑ r : Fin 512, logp x mu (row b r) i :=
  Finset.sum_congr rfl fun r _ => logpN_of_lt x mu _ (row b r).isLt i

/-- What the accumulator of a run holds after block t: the blocks of t's run up to and including t. -/
def partialSum (t : ℕ) (i : Fin 64) : EReal := ∑ b ∈ Finset.Ico (64 * (t / 64)) (t + 1), blockSum x mu b i

/-- The first block of a run starts the accumulator. -/
theorem partialSum_first (t : ℕ) (h : t % 64 = 0) (i : Fin 64) : partialSum x mu t i = blockSum x mu t i := by
  unfold partialSum
  rw [show 64 * (t / 64) = t from by omega, Nat.Ico_succ_singleton, Finset.sum_singleton]

/-- A later block of a run is added to what the block before left. -/
theorem partialSum_next (t : ℕ) (h : t % 64 ≠ 0) (i : Fin 64) :
    partialSum x mu t i = partialSum x mu (t - 1) i + blockSum x mu t i := by
  unfold partialSum
  rw [show (t - 1) / 64 = t / 64 from by omega, show t - 1 + 1 = t from by omega,
    Finset.sum_Ico_succ_top (by omega)]

/-- A sum over n * k consecutive naturals is the sum over n blocks of k. -/
theorem sum_range_blocks {M : Type*} [AddCommMonoid M] (f : ℕ → M) (k : ℕ) :
    ∀ n : ℕ, ∑ a ∈ Finset.range (n * k), f a = ∑ b ∈ Finset.range n, ∑ r ∈ Finset.range k, f (b * k + r)
  | 0 => by simp
  | n + 1 => by rw [Nat.succ_mul, Finset.sum_range_add, Finset.sum_range_succ, sum_range_blocks f k n]

/-- The sum over the batch is the sum over the 128 blocks. -/
theorem total_eq_blocks (i : Fin 64) : total x mu i = ∑ b ∈ Finset.range 128, blockSum x mu b i := by
  unfold total blockSum
  rw [show (∑ n : Fin 65536, logp x mu n i) = ∑ n : Fin 65536, logpN x mu n.val i from
    Finset.sum_congr rfl fun n _ => (logpN_of_lt x mu n.val n.isLt i).symm]
  rw [← Finset.sum_range (fun n => logpN x mu n i), show 65536 = 128 * 512 from rfl, sum_range_blocks]
  refine Finset.sum_congr rfl fun b _ => ?_
  rw [← Finset.sum_range (fun r => logpN x mu (512 * b + r) i)]
  exact Finset.sum_congr rfl fun r _ => by rw [Nat.mul_comm]

/-- The two runs: blocks 0 to 63 and blocks 64 to 127, each summed by its own accumulator. The accumulator of run c
    ends at partialSum (64 * c + 63). -/
theorem total_eq_runs (i : Fin 64) :
    total x mu i = ∑ c : Fin 2, partialSum x mu (64 * c.val + 63) i := by
  rw [total_eq_blocks, Fin.sum_univ_two]
  unfold partialSum
  rw [Finset.range_eq_Ico, ← Finset.sum_Ico_consecutive _ (Nat.zero_le 64) (by decide : 64 ≤ 128)]
  rfl

end Cert.LogDensity

end
-- ==== Proof.ReferenceSum.lean ====
/-
  The reference computes the summed log-density.

  Read at column (0, i) of its [1, 64] result, the reference's last stage is: the reshape of a [64] vector, whose
  entry i is zero plus the sum over all 65536 batch entries n of
    a * (zero + sum over j of (x[n, j] - mu[n, i, j])^2) - c,
  the row x[n, .] having been broadcast along the middle axis. Zero is the additive unit, so this is total i of the
  specification. The stages are read one at a time, outermost first: first what one batch entry contributes, then
  the sum of the contributions.
-/
import proofs.«154055_j69681549410424_2_alg».proof.Proof.Gen.ReferenceIdeal.Read
import proofs.«154055_j69681549410424_2_alg».proof.Proof.LogDensity

noncomputable section

namespace Cert.ReferenceIdeal.ReferenceSum

open Idealize.ShloMosaic Idealize.ShloMosaic.ValueIdx
open Cert.ReferenceIdeal Cert.ReferenceIdeal.Read Cert.LogDensity
open scoped BigOperators

variable (x0 : S65536x64.Idx → EReal) (x1 : S65536x64x64.Idx → EReal)

/-- Term j of the inner sum at (n, i) reads mu at (n, i, j) … -/
theorem inner_mu (n : Fin 65536) (i j : Fin 64) : idx_main_v4 (ix2 n i) j = ix3 n i j :=
  funext fun a => Fin.ext (by match a with | ⟨0, _⟩ => rfl | ⟨1, _⟩ => rfl | ⟨2, _⟩ => rfl)

/-- … and x, through the two broadcasts, at (n, j). -/
theorem inner_x (n : Fin 65536) (i j : Fin 64) : idx_main_v0 (idx_main_v1 (ix3 n i j)) = ix2 n j :=
  funext fun a => Fin.ext (by match a with | ⟨0, _⟩ => rfl | ⟨1, _⟩ => rfl)

/-- What batch entry n contributes at component i: its log-density under mean i. -/
theorem entry_eq (n : Fin 65536) (i : Fin 64) : val_main_v8 (F := Ideal) x0 x1 (ix2 n i) = logp x0 x1 n i := by
  rw [val_main_v8_apply, val_main_v6_apply, val_main_v5_apply, val_main_v7_apply, val_main_v4_apply,
    val_main_cst_apply, val_main_cst_0_apply, val_main_cst_1_apply]
  simp only [inner_mu, val_main_v3_apply, val_main_v2_apply, val_main_v1_apply, val_main_v0_apply, inner_x,
    Ideal.subf_def, Ideal.mulf_def, Ideal.ofBits_def, Ideal.ofBits_zero_f32, zero_add]
  rfl

/-- The reference's result, as the stage the generated reading names, is the specification's result array. -/
theorem reference_eq : val_main_v10 (F := Ideal) x0 x1 = result x0 x1 := by
  funext y
  -- column y of the one-row result is entry (y 1) of the [64] vector: the reshape's row coordinate is 0
  have h0 : (y 0).val < 1 := (y 0).isLt
  have h1 : (y 1).val < 64 := (y 1).isLt
  have hrow : ∀ k : Fin 65536, idx_main_v9 (idx_main_v10 y) k = ix2 k (⟨(y 1).val, h1⟩ : Fin 64) := fun k =>
    funext fun a => Fin.ext (by
      match a with
      | ⟨0, _⟩ => rfl
      | ⟨1, _⟩ => show (y 0).val * 64 + (y 1).val = (y 1).val; omega)
  rw [val_main_v10_apply, val_main_v9_apply, val_main_cst_2_apply, Ideal.ofBits_def, Ideal.ofBits_zero_f32, zero_add]
  show _ = total x0 x1 (⟨(y 1).val, h1⟩ : Fin 64)
  unfold total
  exact Finset.sum_congr rfl fun k _ => (congrArg (val_main_v8 (F := Ideal) x0 x1) (hrow k)).trans (entry_eq x0 x1 k _)

end Cert.ReferenceIdeal.ReferenceSum

end
-- ==== Proof.BodyStores.lean ====
/-
  What one run of the kernel body leaves behind, in each of its three control cases, as a value.

  The body keeps a running sum in a [1, 64, 1] accumulator. With x the point's [512, 64] block, mu its [512, 64, 64]
  block and acc what the accumulator held, one step leaves
    step x mu acc = acc + (sum over the 512 rows of the block of the log-density of that row),
  which is the body's second store. At the first step of a run the accumulator is first set to the zero block, so
  that step leaves step x mu 0; at every later step it leaves step x mu acc of what the step before left; and at the
  last step of a run the output block receives a copy of the accumulator, so it holds the same value.

  Each statement reads the stores the run of that case recorded: one store through the whole block leaves its
  payload, a load through the whole block of a whole buffer reads its contents, and a load of what one whole store
  left reads that store's payload. Stated for any float instance.
-/
import proofs.«154055_j69681549410424_2_alg».proof.Proof.Gen.KernelIdeal.Frame
import Idealize.ShloMosaic.Lib.Pipeline.Value
import Idealize.ShloMosaic.Lib.Tactic

set_option maxRecDepth 16384

noncomputable section

namespace Cert.KernelIdeal.BodyStores

open Idealize.ShloMosaic Idealize.ShloMosaic.TcCoe Idealize.SL.Sem Idealize.ShloMosaic.Tactic
open Cert.KernelIdeal Cert.KernelIdeal.Gen

variable {F : FTy → Type} [FloatOps F]

/-- The zero offsets of a rank-3 and of a rank-2 block, as constant functions. -/
theorem hz3 : (![0, 0, 0] : Fin 3 → Nat) = fun _ => 0 := funext fun a => by fin_cases a <;> rfl
theorem hz2 : (![0, 0] : Fin 2 → Nat) = fun _ => 0 := funext fun a => by fin_cases a <;> rfl

/-- One accumulation step: the accumulator plus the block's summed log-density (the body's second store). -/
abbrev step (x : Vec F S512x64 .f32) (mu : Vec F S512x64x64 .f32) (acc : Vec F S1x64x1 .f32) : FVec F S1x64x1 .f32 :=
  k0_pay2 x mu acc

/-- The zero block the first step of a run stores before accumulating (the body's first store). -/
abbrev zeroAcc : FVec F S1x64x1 .f32 := k0_pay1

/-- A middle step of a run leaves one step over what the accumulator held. -/
theorem acc_middle (c : Dev nD) (i : grid0.Coords) (a2 : Memref sig .tc .vmem S512x64 .f32) (h2 : a2.IsWhole)
    (a3 : Memref sig .tc .vmem S512x64x64 .f32) (h3 : a3.IsWhole) (a4 : Memref sig .tc .vmem S1x64x1 .f32) (h4 : a4.IsWhole)
    (a5 : Memref sig .tc .vmem S1x64x1 .f32) (h5 : a5.IsWhole) (hc0 : ¬cond0_0 i) (hc1 : ¬cond0_1 i)
    (x0 : Vec F S512x64 .f32) (x1 : Vec F S512x64x64 .f32) (xs0 : Vec F S1x64x1 .f32) :
    sout0_B_0 c i a2 h2 a3 h3 a4 h4 a5 h5 hc0 hc1 x0 x1 xs0 = step x0 x1 xs0 := by
  unfold sout0_B_0
  rw [View.read_writes_eq_canon _ _ _ (scover0_B_0 c i a2 h2 a3 h3 a4 h4 a5 h5 hc0 hc1 x0 x1 xs0)]
  unfold kernelRun0_B
  dsimp only
  rw [View.canon_unit_zero hz3]
  simp only [View.readAt_eq_ld, h2.read_unread, h3.read_unread, h5.read_unread, View.ld_unit_zero (S := S512x64) hz2,
    View.ld_unit_zero (S := S512x64x64) hz3, View.ld_unit_zero (S := S1x64x1) hz3]

/-- The first step of a run zeroes the accumulator, reads the zero block back, and leaves one step over it. -/
theorem acc_first (c : Dev nD) (i : grid0.Coords) (a2 : Memref sig .tc .vmem S512x64 .f32) (h2 : a2.IsWhole)
    (a3 : Memref sig .tc .vmem S512x64x64 .f32) (h3 : a3.IsWhole) (a4 : Memref sig .tc .vmem S1x64x1 .f32) (h4 : a4.IsWhole)
    (a5 : Memref sig .tc .vmem S1x64x1 .f32) (h5 : a5.IsWhole) (hc0 : cond0_0 i) (hc1 : ¬cond0_1 i)
    (x0 : Vec F S512x64 .f32) (x1 : Vec F S512x64x64 .f32) :
    sout0_A_0 c i a2 h2 a3 h3 a4 h4 a5 h5 hc0 hc1 x0 x1 = step x0 x1 (zeroAcc (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1x64x1) hz3, View.readCov_unit_zero (S := S1x64x1) _ hz3]
  simp only [View.readAt_eq_ld, h2.read_unread, h3.read_unread, View.ld_unit_zero (S := S512x64) hz2,
    View.ld_unit_zero (S := S512x64x64) hz3]

/-- The last step of a run leaves one step over what the accumulator held, in the accumulator … -/
theorem acc_last (c : Dev nD) (i : grid0.Coords) (a2 : Memref sig .tc .vmem S512x64 .f32) (h2 : a2.IsWhole)
    (a3 : Memref sig .tc .vmem S512x64x64 .f32) (h3 : a3.IsWhole) (a4 : Memref sig .tc .vmem S1x64x1 .f32) (h4 : a4.IsWhole)
    (a5 : Memref sig .tc .vmem S1x64x1 .f32) (h5 : a5.IsWhole) (hc0 : ¬cond0_0 i) (hc1 : cond0_1 i)
    (x0 : Vec F S512x64 .f32) (x1 : Vec F S512x64x64 .f32) (xs0 : Vec F S1x64x1 .f32) :
    sout0_C_0 c i a2 h2 a3 h3 a4 h4 a5 h5 hc0 hc1 x0 x1 xs0 = step x0 x1 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero hz3]
  simp only [View.readAt_eq_ld, h2.read_unread, h3.read_unread, h5.read_unread, View.ld_unit_zero (S := S512x64) hz2,
    View.ld_unit_zero (S := S512x64x64) hz3, View.ld_unit_zero (S := S1x64x1) hz3]

/-- … and the output block receives the accumulator read back after that store: the same value. -/
theorem out_last (c : Dev nD) (i : grid0.Coords) (a2 : Memref sig .tc .vmem S512x64 .f32) (h2 : a2.IsWhole)
    (a3 : Memref sig .tc .vmem S512x64x64 .f32) (h3 : a3.IsWhole) (a4 : Memref sig .tc .vmem S1x64x1 .f32) (h4 : a4.IsWhole)
    (a5 : Memref sig .tc .vmem S1x64x1 .f32) (h5 : a5.IsWhole) (hc0 : ¬cond0_0 i) (hc1 : cond0_1 i)
    (x0 : Vec F S512x64 .f32) (x1 : Vec F S512x64x64 .f32) (xs0 : Vec F S1x64x1 .f32) :
    out0_C_2 c i a2 h2 a3 h3 a4 h4 a5 h5 hc0 hc1 x0 x1 xs0 = step x0 x1 xs0 := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero hz3, View.readCov_unit_zero (S := S1x64x1) _ hz3]
  simp only [View.readAt_eq_ld, h2.read_unread, h3.read_unread, h5.read_unread, View.ld_unit_zero (S := S512x64) hz2,
    View.ld_unit_zero (S := S512x64x64) hz3, View.ld_unit_zero (S := S1x64x1) hz3]

end Cert.KernelIdeal.BodyStores

end
-- ==== Proof.StepValue.lean ====
/-
  One accumulation step, read at an index over the extended reals.

  With x a [512, 64] block, mu a [512, 64, 64] block and acc a [1, 64, 1] block, the step's value at (0, i, 0) is
    acc (0, i, 0) + sum over the 512 rows r of ( a * (sum over j of (x[r, j] - mu[r, i, j])^2) - c ).
  The body gets there through layout steps that move no number: x is given a unit middle axis and repeated along it,
  the lane sums keep a unit last axis, and the row sum is given a unit first axis. Each such step is read at an index
  by matching row-major positions; each sum is the plain sum over the reduced coordinate.
-/
import proofs.«154055_j69681549410424_2_alg».proof.Proof.Gen.KernelIdeal.Skeleton
import proofs.«154055_j69681549410424_2_alg».proof.Proof.LogDensity
import Idealize.ShloMosaic.Lib.Pipeline.Value
import Idealize.ShloMosaic.Lib.ValueIdx
import Idealize.ShloMosaic.PureOps.Ideal.Laws

noncomputable section

namespace Cert.KernelIdeal.StepValue

open Idealize.ShloMosaic Idealize.ShloMosaic.ValueIdx
open Cert.KernelIdeal Cert.KernelIdeal.Gen Cert.LogDensity
open scoped BigOperators

/-- The log-density of row r of a block under mean i. -/
def blockLogp (x : S512x64.Idx → EReal) (mu : S512x64x64.Idx → EReal) (r : Fin 512) (i : Fin 64) : EReal :=
  negHalf * (∑ j : Fin 64, (x (ix2 r j) - mu (ix3 r i j)) * (x (ix2 r j) - mu (ix3 r i j))) - logNorm

/-- A scalar word is the same extended real whether a kernel or a host line spells it. -/
theorem scalar_word (w : BitVec 32) : Scalar.ofBits (F := Ideal) .f32 w = Ideal.ofBits .f32 w := rfl

/-- x with a unit middle axis: entry (r, 0, j) is x[r, j]. -/
theorem unit_middle (v : FVec Ideal S512x64 .f32) (r : Fin 512) (z : Fin 1) (j : Fin 64) :
    shapeCast S512x1x64 v shapeCasts_S512x64_S512x1x64 (ix3 r z j) = v (ix2 r j) :=
  shapeCast_apply v shapeCasts_S512x64_S512x1x64 (ix3 r z j) (ix2 r j) (by
    rewrite [Shape.rowMajor_val_two, Shape.rowMajor_val_three]
    show r.val * 64 + j.val = (r.val * 1 + z.val) * 64 + j.val
    have := z.isLt; omega)

/-- Repeating along the unit middle axis: entry (r, i, j) is entry (r, 0, j). -/
theorem repeat_middle (v : FVec Ideal S512x1x64 .f32) (r : Fin 512) (i : Fin 64) (j : Fin 64) :
    broadcastTo S512x64x64 v broadcasts_S512x1x64_S512x64x64 (ix3 r i j) = v (ix3 r (0 : Fin 1) j) :=
  broadcastTo_apply v broadcasts_S512x1x64_S512x64x64 (ix3 r i j) (ix3 r (0 : Fin 1) j) (fun a => by
    match a with
    | ⟨0, _⟩ => show r.val = if (512 : Nat) = 1 then 0 else r.val; rw [if_neg (by decide)]
    | ⟨1, _⟩ => show 0 = if (1 : Nat) = 1 then 0 else i.val; rw [if_pos rfl]
    | ⟨2, _⟩ => show j.val = if (64 : Nat) = 1 then 0 else j.val; rw [if_neg (by decide)])

/-- The sum over the last axis of a [512, 64, 64] block, at (r, i). -/
theorem lane_sum (v : FVec Ideal S512x64x64 .f32) (hφ : FKind.Formats .f32)
    (hacc : (0x00000000#32 : BitVec 32) = 0x00000000#32) (r : Fin 512) (i : Fin 64) :
    multiReduction .add [2] S512x64 v 0x00000000#32 reduces_S512x64x64_S512x64 hφ hacc (ix2 r i)
      = ∑ j : Fin 64, v (ix3 r i j) :=
  (Ideal.multiReduction_add_single v 0x00000000#32 reduces_S512x64x64_S512x64 hφ hacc (ix2 r i)).trans
    (Finset.sum_congr rfl fun j _ => congrArg v (funext fun a => Fin.ext (by
      match a with | ⟨0, _⟩ => rfl | ⟨1, _⟩ => rfl | ⟨2, _⟩ => rfl)))

/-- Keeping a unit last axis: entry (r, i, 0) is entry (r, i). -/
theorem unit_last (v : FVec Ideal S512x64 .f32) (r : Fin 512) (i : Fin 64) (z : Fin 1) :
    shapeCast S512x64x1 v shapeCasts_S512x64_S512x64x1 (ix3 r i z) = v (ix2 r i) :=
  shapeCast_apply v shapeCasts_S512x64_S512x64x1 (ix3 r i z) (ix2 r i) (by
    rewrite [Shape.rowMajor_val_two, Shape.rowMajor_val_three]
    show r.val * 64 + i.val = (r.val * 64 + i.val) * 1 + z.val
    have := z.isLt; omega)

/-- The sum over the first axis of a [512, 64, 1] block, at (i, 0). -/
theorem row_sum (v : FVec Ideal S512x64x1 .f32) (hφ : FKind.Formats .f32)
    (hacc : (0x00000000#32 : BitVec 32) = 0x00000000#32) (i : Fin 64) (z : Fin 1) :
    multiReduction .add [0] S64x1 v 0x00000000#32 reduces_S512x64x1_S64x1 hφ hacc (ix2 i z)
      = ∑ r : Fin 512, v (ix3 r i z) :=
  (Ideal.multiReduction_add_single v 0x00000000#32 reduces_S512x64x1_S64x1 hφ hacc (ix2 i z)).trans
    (Finset.sum_congr rfl fun r _ => congrArg v (funext fun a => Fin.ext (by
      match a with | ⟨0, _⟩ => rfl | ⟨1, _⟩ => rfl | ⟨2, _⟩ => rfl)))

/-- Giving a unit first axis: entry (0, i, 0) is entry (i, 0). -/
theorem unit_first (v : FVec Ideal S64x1 .f32) (z0 : Fin 1) (i : Fin 64) (z : Fin 1) :
    shapeCast S1x64x1 v shapeCasts_S64x1_S1x64x1 (ix3 z0 i z) = v (ix2 i z) :=
  shapeCast_apply v shapeCasts_S64x1_S1x64x1 (ix3 z0 i z) (ix2 i z) (by
    rewrite [Shape.rowMajor_val_two, Shape.rowMajor_val_three]
    show i.val * 1 + z.val = (z0.val * 64 + i.val) * 1 + z.val
    have := z0.isLt; omega)

/-- One step at (0, i, 0): the accumulator there plus the block's summed log-density under mean i. -/
theorem step_apply (x : FVec Ideal S512x64 .f32) (mu : FVec Ideal S512x64x64 .f32) (acc : FVec Ideal S1x64x1 .f32)
    (z0 : Fin 1) (i : Fin 64) (z : Fin 1) :
    k0_pay2 (F := Ideal) x mu acc (ix3 z0 i z) = acc (ix3 z0 i z) + ∑ r : Fin 512, blockLogp x mu r i := by
  unfold k0_pay2 blockLogp
  -- the outer cast moves nothing; the sum of acc and the row sum is read entry by entry
  rw [shapeCast_self]
  show acc (ix3 z0 i z) + shapeCast S1x64x1 _ shapeCasts_S64x1_S1x64x1 (ix3 z0 i z) = _
  refine congrArg (acc (ix3 z0 i z) + ·) ?_
  -- the unit first axis, then the sum over the 512 rows
  refine (unit_first _ z0 i z).trans ((row_sum _ _ _ i z).trans (Finset.sum_congr rfl fun r _ => ?_))
  -- row r: a * (the lane sum, with its unit last axis) - c
  show negHalf * shapeCast S512x64x1 _ shapeCasts_S512x64_S512x64x1 (ix3 r i z) - logNorm = _
  refine congrArg (fun s => negHalf * s - logNorm) ?_
  refine (unit_last _ r i z).trans ((lane_sum _ _ _ r i).trans (Finset.sum_congr rfl fun j _ => ?_))
  -- lane j: the square of x[r, j], repeated along the middle axis, minus mu[r, i, j]
  have e : broadcastTo S512x64x64 (shapeCast S512x1x64 x shapeCasts_S512x64_S512x1x64) broadcasts_S512x1x64_S512x64x64
      (ix3 r i j) = x (ix2 r j) := (repeat_middle _ r i j).trans (unit_middle x r 0 j)
  show (broadcastTo S512x64x64 (shapeCast S512x1x64 x shapeCasts_S512x64_S512x1x64) broadcasts_S512x1x64_S512x64x64
      (ix3 r i j) - mu (ix3 r i j)) * (broadcastTo S512x64x64 (shapeCast S512x1x64 x shapeCasts_S512x64_S512x1x64)
      broadcasts_S512x1x64_S512x64x64 (ix3 r i j) - mu (ix3 r i j)) = _
  rw [e]

/-- A step whose blocks are rows 512 * b + r of the whole arrays X and MU adds block b's summed log-density: the
    block's row r under mean i has the log-density of batch entry 512 * b + r. Stated over plain variables, with
    the two "the block is those rows" facts as hypotheses, so that it can be used at any point of the grid. -/
theorem step_adds_block (x : FVec Ideal S512x64 .f32) (mu : FVec Ideal S512x64x64 .f32) (acc : FVec Ideal S1x64x1 .f32)
    (X : SX.Idx → EReal) (MU : SM.Idx → EReal) (b : Fin 128)
    (hx : ∀ (r : Fin 512) (j : Fin 64), x (ix2 r j) = X (ix2 (row b r) j))
    (hmu : ∀ (r : Fin 512) (i j : Fin 64), mu (ix3 r i j) = MU (ix3 (row b r) i j))
    (z0 : Fin 1) (i : Fin 64) (z : Fin 1) :
    k0_pay2 (F := Ideal) x mu acc (ix3 z0 i z) = acc (ix3 z0 i z) + blockSum X MU b.val i := by
  rw [step_apply, blockSum_of_lt]
  refine congrArg (acc (ix3 z0 i z) + ·) (Finset.sum_congr rfl fun r _ => ?_)
  unfold blockLogp logp sqDist
  simp only [hx, hmu]

/-- The zero block is zero everywhere. -/
theorem zero_apply (y : S1x64x1.Idx) : k0_pay1 (F := Ideal) y = 0 := by
  unfold k0_pay1
  simp only [shapeCast_self, broadcast_apply, scalar_word, Ideal.ofBits_zero_f32]

end Cert.KernelIdeal.StepValue

end
-- ==== Proof.RunningSum.lean ====
/-
  What the accumulator holds after each grid point.

  The grid has 128 points; point t is step t mod 64 of run t div 64, and its blocks are rows 512 * t to 512 * t + 511
  of the two argument arrays. By induction on the point, after point t the accumulator holds, at component i, the
  summed log-density of the blocks of t's run up to and including t:
    - at the first step of a run the accumulator is zeroed and block t added:   0 + blockSum t;
    - at a later step block t is added to what point t - 1 left.
  At the last step of a run the output block holds the same value as the accumulator.
-/
import proofs.«154055_j69681549410424_2_alg».proof.Proof.Gen.KernelIdeal.Frame
import proofs.«154055_j69681549410424_2_alg».proof.Proof.BodyStores
import proofs.«154055_j69681549410424_2_alg».proof.Proof.StepValue
import Idealize.ShloMosaic.Lib.Pipeline.Value

set_option maxRecDepth 16384

noncomputable section

namespace Cert.KernelIdeal.RunningSum

open Idealize.ShloMosaic Idealize.ShloMosaic.TcCoe Idealize.SL.Sem Idealize.ShloMosaic.ValueIdx
open Cert.KernelIdeal Cert.KernelIdeal.Gen Cert.LogDensity Cert.KernelIdeal.BodyStores Cert.KernelIdeal.StepValue
open scoped BigOperators

variable (m : (ℓ : Loc nD τ sig) → Buf (Elt Ideal) ℓ)

/-- The two argument arrays as core c finds them. -/
abbrev X (c : Dev nD) : SX.Idx → EReal := m ((c : Thread nD τ).loc main_arg0)
abbrev MU (c : Dev nD) : SM.Idx → EReal := m ((c : Thread nD τ).loc main_arg1)

/-- Point t's block of x starts at row block t and column block 0 … -/
theorem index_x : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- … and its block of mu at row block t. -/
theorem index_mu : ∀ t : Fin cfg0.N, win0_1.index t (0 : Fin 3) = t.val ∧ win0_1.index t (1 : Fin 3) = 0
    ∧ win0_1.index t (2 : Fin 3) = 0 :=
  (by decide +kernel : ∀ t : Fin grid0.N, win0_1.index t (0 : Fin 3) = t.val ∧ win0_1.index t (1 : Fin 3) = 0
    ∧ win0_1.index t (2 : Fin 3) = 0)

/-- Row r of point t's block of x is row 512 * t + r of x. -/
theorem block_x (c : Dev nD) (t : Fin cfg0.N) (ht : t.val < 128) (r : Fin 512) (j : Fin 64) :
    (iblk m c 0 t : FVec Ideal S512x64 .f32) (ix2 r j) = X m c (ix2 (row ⟨t.val, ht⟩ r) j) := by
  obtain ⟨e0, e1⟩ := index_x t
  unfold iblk
  rw [View.read_apply]
  show m ((c : Thread nD τ).loc main_arg0) _ = m ((c : Thread nD τ).loc main_arg0) _
  refine congrArg (m ((c : Thread nD τ).loc main_arg0)) (funext fun a => Fin.ext ?_)
  match a with
  | ⟨0, _⟩ => show win0_0.index t (0 : Fin 2) * 512 + 1 * r.val = 512 * t.val + r.val; omega
  | ⟨1, _⟩ => show win0_0.index t (1 : Fin 2) * 64 + 1 * j.val = j.val; omega

/-- Row r of point t's block of mu is row 512 * t + r of mu. -/
theorem block_mu (c : Dev nD) (t : Fin cfg0.N) (ht : t.val < 128) (r : Fin 512) (i j : Fin 64) :
    (iblk m c 1 t : FVec Ideal S512x64x64 .f32) (ix3 r i j) = MU m c (ix3 (row ⟨t.val, ht⟩ r) i j) := by
  obtain ⟨e0, e1, e2⟩ := index_mu t
  unfold iblk
  rw [View.read_apply]
  show m ((c : Thread nD τ).loc main_arg1) _ = m ((c : Thread nD τ).loc main_arg1) _
  refine congrArg (m ((c : Thread nD τ).loc main_arg1)) (funext fun a => Fin.ext ?_)
  match a with
  | ⟨0, _⟩ => show win0_1.index t (0 : Fin 3) * 512 + 1 * r.val = 512 * t.val + r.val; omega
  | ⟨1, _⟩ => show win0_1.index t (1 : Fin 3) * 64 + 1 * i.val = i.val; omega
  | ⟨2, _⟩ => show win0_1.index t (2 : Fin 3) * 64 + 1 * j.val = j.val; omega

/-- One step at point t over an accumulator acc adds block t. -/
theorem step_at (c : Dev nD) (t : Fin cfg0.N) (ht : t.val < 128) (acc : FVec Ideal S1x64x1 .f32)
    (z0 : Fin 1) (i : Fin 64) (z : Fin 1) :
    step (F := Ideal) (iblk m c 0 t) (iblk m c 1 t) acc (ix3 z0 i z)
      = acc (ix3 z0 i z) + blockSum (X m c) (MU m c) t.val i :=
  step_adds_block (iblk m c 0 t) (iblk m c 1 t) acc (X m c) (MU m c) ⟨t.val, ht⟩
    (block_x m c t ht) (block_mu m c t ht) z0 i z

/-- THE RUNNING SUM: after point n the accumulator holds, at component i, the blocks of n's run up to n. -/
theorem acc_eq (c : Dev nD) : ∀ (n : ℕ) (h : n < cfg0.N) (z0 : Fin 1) (i : Fin 64) (z : Fin 1),
    ((outsAt0 m c n h).2 : FVec Ideal S1x64x1 .f32) (ix3 z0 i z) = partialSum (X m c) (MU m c) n i := by
  intro n
  induction n using Nat.strong_induction_on with
  | _ n ih =>
    intro h z0 i z
    have hN : n < 128 := lt_of_lt_of_eq h (show cfg0.N = 128 from N_0)
    by_cases h0 : n % 64 = 0
    · -- the first step of a run
      have h1 : ¬n % 64 = 63 := by omega
      rw [outsAt0_A m c ⟨n, h⟩ h0 h1]
      dsimp only
      rw [acc_first, step_at m c ⟨n, h⟩ hN,
        show (zeroAcc (F := Ideal)) (ix3 z0 i z) = 0 from zero_apply _, zero_add, partialSum_first _ _ n h0]
    · have hprev : n - 1 < n := by omega
      by_cases h1 : n % 64 = 63
      · -- the last step of a run
        rw [outsAt0_C m c ⟨n, h⟩ h0 h1]
        dsimp only
        rw [acc_last, step_at m c ⟨n, h⟩ hN, ih (n - 1) hprev, partialSum_next _ _ n h0]
      · -- a middle step
        rw [outsAt0_B m c ⟨n, h⟩ h0 h1]
        dsimp only
        rw [acc_middle, step_at m c ⟨n, h⟩ hN, ih (n - 1) hprev, partialSum_next _ _ n h0]

/-- At the last step of a run the output block holds what the accumulator holds. -/
theorem out_eq (c : Dev nD) (n : ℕ) (h : n < cfg0.N) (h63 : n % 64 = 63) (z0 : Fin 1) (i : Fin 64) (z : Fin 1) :
    ((outsAt0 m c n h).1 : FVec Ideal S1x64x1 .f32) (ix3 z0 i z) = partialSum (X m c) (MU m c) n i := by
  have h0 : ¬n % 64 = 0 := by omega
  have hacc := acc_eq m c n h z0 i z
  rw [outsAt0_C m c ⟨n, h⟩ h0 h63] at hacc ⊢
  dsimp only at hacc ⊢
  rw [acc_last] at hacc
  rw [out_last]
  exact hacc

end Cert.KernelIdeal.RunningSum

end
-- ==== Proof.KernelSum.lean ====
/-
  The kernel computes the summed log-density.

  The region's output is a [2, 64, 1] array: row c is written once, by the last point of run c (point 64 * c + 63),
  with what the accumulator then holds — the summed log-density of run c's 64 blocks. The two rows cover the array.
  After the region the host adds the two rows (zero plus their sum) and reshapes the [64, 1] result to [1, 64], so
  column (0, i) of the result is the sum over the two runs of each run's total, which is the sum over the whole
  batch: total i of the specification.
-/
import proofs.«154055_j69681549410424_2_alg».proof.Proof.RunningSum
import Idealize.ShloMosaic.Lib.Pipeline.Value
import Idealize.ShloMosaic.Lib.StableHlo.Run
import Idealize.ShloMosaic.Lib.Tactic
import Idealize.ShloMosaic.PureOps.Ideal.Laws

set_option maxRecDepth 16384

noncomputable section

namespace Cert.KernelIdeal.KernelSum

open Idealize.ShloMosaic Idealize.ShloMosaic.TcCoe Idealize.SL.Sem Idealize.ShloMosaic.ValueIdx
open Idealize.ShloMosaic.Pipeline (Dat)
open Cert.KernelIdeal Cert.KernelIdeal.Gen Cert.LogDensity Cert.KernelIdeal.RunningSum
open scoped BigOperators

variable (m : (ℓ : Loc nD τ sig) → Buf (Elt Ideal) ℓ) (ρ : Dev nD → PrngReg)

/-- What the region's output array ends holding: row c, component i, is run c's total. -/
def runTotals (c : Dev nD) : S2x64x1.Idx → EReal := fun w =>
  partialSum (X m c) (MU m c) (64 * (w 0).val + 63) ⟨(w 1).val, (w 1).isLt⟩

/-- Point t's output block is row t div 64. -/
theorem index_out : ∀ t : Fin cfg0.N, win0_2.index t (0 : Fin 3) = t.val / 64 ∧ win0_2.index t (1 : Fin 3) = 0
    ∧ win0_2.index t (2 : Fin 3) = 0 :=
  (by decide +kernel : ∀ t : Fin grid0.N, win0_2.index t (0 : Fin 3) = t.val / 64 ∧ win0_2.index t (1 : Fin 3) = 0
    ∧ win0_2.index t (2 : Fin 3) = 0)

/-- What a writing point writes back is its row of runTotals: the point is the last of its run, its output block
    holds the run's total, and the block sits at row t div 64. -/
theorem flushed_eq (c : Dev nD) (t : Fin cfg0.N) (hf : (cfg0.win 2).flush t = true) :
    (dats m 0 c).flushed 2 t = ((cfg0.win 2).blk t).view.read (Elt Ideal) (runTotals m c) := by
  have h63 : t.val % 64 = 63 := (flush0_2 t).mp hf
  obtain ⟨e0, e1, e2⟩ := index_out t
  show (cfg0.win 2).cut (grid0.coords t) ((dats m 0 c).after 2 t) = _
  rw [after0_2]
  refine funext fun (y : S1x64x1.Idx) => ?_
  obtain ⟨z0, i, z, rfl⟩ : ∃ (z0 : Fin 1) (i : Fin 64) (z : Fin 1), y = ix3 z0 i z := ⟨y 0, y 1, y 2, eq_ix3 y⟩
  show ((outsAt0 m c t.val t.isLt).1 : FVec Ideal S1x64x1 .f32) (ix3 z0 i z)
    = runTotals m c (((cfg0.win 2).blk t).view.emb (ix3 z0 i z))
  rw [out_eq m c t.val t.isLt h63 z0 i z]
  unfold runTotals
  have a0 : ((((cfg0.win 2).blk t).view.emb (ix3 z0 i z)) 0).val = t.val / 64 := by
    show win0_2.index t (0 : Fin 3) * 1 + 1 * z0.val = t.val / 64
    have := z0.isLt; omega
  have a1 : ((((cfg0.win 2).blk t).view.emb (ix3 z0 i z)) 1).val = i.val := by
    show win0_2.index t (1 : Fin 3) * 64 + 1 * i.val = i.val
    omega
  exact congrArg₂ (partialSum (X m c) (MU m c)) (by rw [a0]; omega) (Fin.ext a1.symm)

/-- Every entry of the array is in the block of its row's last point. -/
theorem cover (c : Dev nD) (w : S2x64x1.Idx) :
    ∃ t : Fin cfg0.N, (cfg0.win 2).flush t = true ∧ w ∈ ((cfg0.win 2).blk t).view.set := by
  have w0 : (w 0).val < 2 := (w 0).isLt
  have w1 : (w 1).val < 64 := (w 1).isLt
  have w2 : (w 2).val < 1 := (w 2).isLt
  have hN : cfg0.N = 128 := N_0
  have hlt : 64 * (w 0).val + 63 < cfg0.N := by omega
  obtain ⟨e0, e1, e2⟩ := index_out ⟨64 * (w 0).val + 63, hlt⟩
  have e0' : win0_2.index ⟨64 * (w 0).val + 63, hlt⟩ (0 : Fin 3) = (w 0).val := by
    rw [e0]; show (64 * (w 0).val + 63) / 64 = (w 0).val; omega
  refine ⟨⟨64 * (w 0).val + 63, hlt⟩, (flush0_2 _).mpr (by show (64 * (w 0).val + 63) % 64 = 63; omega), ?_⟩
  show w ∈ ((View.whole main_v0).slice (win0_2.rect ⟨64 * (w 0).val + 63, hlt⟩)).set
  rw [View.set_slice_whole, Rect.mem_set_unit]
  intro a
  match a with
  | ⟨0, _⟩ =>
    show win0_2.index ⟨64 * (w 0).val + 63, hlt⟩ (0 : Fin 3) * 1 ≤ (w 0).val
      ∧ (w 0).val < win0_2.index ⟨64 * (w 0).val + 63, hlt⟩ (0 : Fin 3) * 1 + 1
    omega
  | ⟨1, _⟩ =>
    show win0_2.index ⟨64 * (w 0).val + 63, hlt⟩ (1 : Fin 3) * 64 ≤ (w 1).val
      ∧ (w 1).val < win0_2.index ⟨64 * (w 0).val + 63, hlt⟩ (1 : Fin 3) * 64 + 64
    omega
  | ⟨2, _⟩ =>
    show win0_2.index ⟨64 * (w 0).val + 63, hlt⟩ (2 : Fin 3) * 1 ≤ (w 2).val
      ∧ (w 2).val < win0_2.index ⟨64 * (w 0).val + 63, hlt⟩ (2 : Fin 3) * 1 + 1
    omega

/-- So the region's output array ends at runTotals. -/
theorem final (c : Dev nD) : (dats m 0 c).arrAt 2 cfg0.N = runTotals m c :=
  (dats m 0 c).arrAt_eq_of_cover 2 (runTotals m c) (flushed_eq m c) (cover c)

/-- The host's sum of the two rows, at (i, 0): zero plus the two rows' entries. -/
theorem add_rows (v : FVec Ideal S2x64x1 .f32) (i : Fin 64) (z : Fin 1) :
    Host.reduceAdd (F := Ideal) v (constant (F := Ideal) S_ .f32 0x00000000#32) reducesTo_S2x64x1_S64x1_d0 h_S_ (ix2 i z)
      = ∑ k : Fin 2, v (ix3 k i z) := by
  simp only [Host.reduceAdd, Ideal.hostReduceAdd_def]
  rw [Ideal.hostReduceAdd_single reducesTo_S2x64x1_S64x1_d0 (by decide)]
  rw [constant_apply, Ideal.ofBits_zero_f32, zero_add]
  exact Finset.sum_congr rfl fun k _ => congrArg v (funext fun a => Fin.ext (by
    match a with | ⟨0, _⟩ => rfl | ⟨1, _⟩ => rfl | ⟨2, _⟩ => rfl))

/-- The two host lines after the region, applied to the region's output array. -/
abbrev hostTail (A : FVec Ideal S2x64x1 .f32) : FVec Ideal S1x64 .f32 :=
  shapeCast S1x64 (Host.reduceAdd (F := Ideal) A (constant (F := Ideal) S_ .f32 0x00000000#32)
    reducesTo_S2x64x1_S64x1_d0 h_S_) shapeCasts_S64x1_S1x64

/-- The host tail of runTotals is the specification's result: column (0, i) is the sum of the two runs' totals. -/
theorem hostTail_eq (c : Dev nD) : hostTail (runTotals m c) = result (X m c) (MU m c) := by
  refine funext fun (y : S1x64.Idx) => ?_
  obtain ⟨z0, i, rfl⟩ : ∃ (z0 : Fin 1) (i : Fin 64), y = ix2 z0 i := ⟨y 0, y 1, eq_ix2 y⟩
  refine (shapeCast_apply _ shapeCasts_S64x1_S1x64 (ix2 z0 i) (ix2 i (0 : Fin 1)) (by
    rewrite [Shape.rowMajor_val_two, Shape.rowMajor_val_two]
    show i.val * 1 + 0 = z0.val * 64 + i.val
    have := z0.isLt; omega)).trans ?_
  rw [add_rows]
  show _ = total (X m c) (MU m c) i
  rw [total_eq_runs]
  rfl

/-- The result buffer is neither a staging buffer nor an array of the region, so the run states it as the host
    lines after the region leave it. -/
theorem result_mem : main_v2 ∈ Pipeline.restRefs sig (cfgs 0).spec :=
  Pipeline.mem_restRefs_of main_v2 rfl (fun w => by fin_cases w <;> decide)

/-- What the host lines after the region leave in the result buffer: the host tail of the region's output array. -/
theorem tail_eq (c : Dev nD) :
    Pipeline.afterTail₀ cfgs (dats m) 0 (V0 m) [hostOps1 (F := Ideal)] c main_v2 = hostTail (runTotals m c) := by
  unfold Pipeline.afterTail₀
  show StableHlo.after (hostOps1 (F := Ideal)) _ (Proc.devRef .tc main_v2) = _
  after_results
  rw [Pipeline.withArrays_arr spec0 launch0.win.arr_inj c _ _ 2, final]
  rfl

/-- THE KERNEL'S RUN: every weakly fair execution terminates with the result buffer at the specification's result
    of the two argument arrays, and the argument arrays unchanged. -/
theorem run : θ_run defs (onTc (τ := τ) (main (F := Ideal))) ⟨m, fun _ => 0, ρ⟩ fun r => ∀ c : Dev nD,
      r.2.mem ((c : Thread nD τ).loc main_v2) = result (X m c) (MU m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v2 result_mem).trans ((tail_eq m c).trans (hostTail_eq m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KernelSum

end
-- ==== Proof.lean ====
/- The kernel and its reference compute the same summed Gaussian log-density.

   With x a [65536, 64] array and mu a [65536, 64, 64] array, both programs return the [1, 64] array whose column i is
     sum over the 65536 batch entries n of ( a * (sum over j of (x[n, j] - mu[n, i, j])^2) - c ),
   a the word of -1/2 and c the word of 32 * log (2 pi), the same two words in both programs.

   The reference takes the sum over the batch in one reduction. The kernel walks a grid of 128 points in two runs of
   64: point t adds the summed log-density of rows 512 * t to 512 * t + 511 to an accumulator that the first point
   of a run zeroes and the last point of a run writes out, and the host adds the two runs' totals. Over the extended
   reals the two are one number, because addition is commutative and associative: the sum over the batch regroups as
   the sum over the runs of the sum over a run's blocks of the sum over a block's rows, with no assumption on the
   inputs (Proof/LogDensity.lean). So the finiteness precondition is never opened.

   Proof/ReferenceSum.lean: the reference's last stage is that function. Proof/BodyStores.lean, Proof/StepValue.lean,
   Proof/RunningSum.lean, Proof/KernelSum.lean: what the kernel body stores in each control case, one step read at an
   index, the accumulator after each point by induction, and the output array and the host tail. The three frames
   are the generated ones (the reference's is its generated run with the result dropped); the idealization rewrote
   nothing, so the preservation conjunct is trivial. -/
import proofs.«154055_j69681549410424_2_alg».proof.Defs
import proofs.«154055_j69681549410424_2_alg».proof.Proof.Gen.Kernel
import proofs.«154055_j69681549410424_2_alg».proof.Proof.Gen.Kernel.Frame
import proofs.«154055_j69681549410424_2_alg».proof.Proof.Gen.KernelIdeal
import proofs.«154055_j69681549410424_2_alg».proof.Proof.Gen.KernelIdeal.Frame
import proofs.«154055_j69681549410424_2_alg».proof.Proof.Gen.ReferenceIdeal
import proofs.«154055_j69681549410424_2_alg».proof.Proof.Gen.ReferenceIdeal.Run
import proofs.«154055_j69681549410424_2_alg».proof.Proof.Gen.ReferenceIdeal.Read
import proofs.«154055_j69681549410424_2_alg».proof.Proof.Gen.Pre_finite_inputs
import proofs.«154055_j69681549410424_2_alg».proof.Proof.LogDensity
import proofs.«154055_j69681549410424_2_alg».proof.Proof.ReferenceSum
import proofs.«154055_j69681549410424_2_alg».proof.Proof.KernelSum
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run ends with its arguments unchanged. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result at the summed log-density of the argument arrays, and the arrays agree. -/
theorem algebraic : Cert.algebraic_KernelIdeal_ReferenceIdeal := by
  intro m ρ m' ρ' _ hagree
  refine ⟨fun c => Cert.LogDensity.result (Cert.KernelIdeal.RunningSum.X m c) (Cert.KernelIdeal.RunningSum.MU m c),
    Cert.KernelIdeal.KernelSum.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.ReferenceSum.reference_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
